-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50 : Shape := ⟨2, ![1024, 50]⟩
abbrev S1024 : Shape := ⟨1, ![1024]⟩
abbrev S100000 : Shape := ⟨1, ![100000]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  main_v18

def fn {F : FTy → Type} [FloatOps F] (main_arg0 : IVec S1024x50 32) (main_arg1 : IVec S1024 32) (main_arg2 : IVec S100000 32) (main_arg3 : FVec F S100000x64 .f32) (main_arg4 : FVec F S100000x64 .f32) (main_arg5 : FVec F S100000x64 .f32) (main_arg6 : FVec F S100000 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg4
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg5
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000 .f32 := Host.absf main_arg6
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_v13 main_v16
-- ==== Kernel.lean ====
abbrev S1024x50 : Shape := ⟨2, ![1024, 50]⟩
abbrev S1024 : Shape := ⟨1, ![1024]⟩
abbrev S100000 : Shape := ⟨1, ![100000]⟩
abbrev S100000x64 : Shape := ⟨2, ![100000, 64]⟩
abbrev S_ : Shape := ⟨0, ![]⟩
abbrev S1024x50x1 : Shape := ⟨3, ![1024, 50, 1]⟩
abbrev S1024x50x64 : Shape := ⟨3, ![1024, 50, 64]⟩
abbrev S1024x1 : Shape := ⟨2, ![1024, 1]⟩
abbrev S1024x64 : Shape := ⟨2, ![1024, 64]⟩
abbrev S1024x10x64 : Shape := ⟨3, ![1024, 10, 64]⟩
abbrev S100000x1 : Shape := ⟨2, ![100000, 1]⟩
abbrev S100352x64 : Shape := ⟨2, ![100352, 64]⟩
abbrev S100352 : Shape := ⟨1, ![100352]⟩
abbrev S1x100352 : Shape := ⟨2, ![1, 100352]⟩
abbrev S1024x100352 : Shape := ⟨2, ![1024, 100352]⟩
abbrev S2048x64 : Shape := ⟨2, ![2048, 64]⟩
abbrev S1x2048 : Shape := ⟨2, ![1, 2048]⟩
abbrev S1024x2048 : Shape := ⟨2, ![1024, 2048]⟩
abbrev S1024x100000 : Shape := ⟨2, ![1024, 100000]⟩

abbrev nBuf : Space → Nat
  | .hbm => 74
  | .vmem => 7
  | .smem => 0
  | _ => 0

abbrev bufTy : (tb : Table) → Fin (tcTables nBuf tb) → BufTy
  | .hbm, ⟨0, _⟩ => ⟨S1024x50, .i32⟩
  | .hbm, ⟨1, _⟩ => ⟨S1024, .i32⟩
  | .hbm, ⟨2, _⟩ => ⟨S100000, .i32⟩
  | .hbm, ⟨3, _⟩ => ⟨S100000x64, .f32⟩
  | .hbm, ⟨4, _⟩ => ⟨S100000x64, .f32⟩
  | .hbm, ⟨5, _⟩ => ⟨S100000x64, .f32⟩
  | .hbm, ⟨6, _⟩ => ⟨S100000, .f32⟩
  | .hbm, ⟨7, _⟩ => ⟨S_, .i32⟩
  | .hbm, ⟨8, _⟩ => ⟨S1024x50, .i32⟩
  | .hbm, ⟨9, _⟩ => ⟨S1024x50, .i1⟩
  | .hbm, ⟨10, _⟩ => ⟨S_, .i32⟩
  | .hbm, ⟨11, _⟩ => ⟨S1024x50, .i32⟩
  | .hbm, ⟨12, _⟩ => ⟨S1024x50, .i32⟩
  | .hbm, ⟨13, _⟩ => ⟨S1024x50, .i32⟩
  | .hbm, ⟨14, _⟩ => ⟨S1024x50x1, .i32⟩
  | .hbm, ⟨15, _⟩ => ⟨S1024x50x64, .f32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x64, .f32⟩
  | .hbm, ⟨25, _⟩ => ⟨S1024x10x64, .f32⟩
  | .hbm, ⟨26, _⟩ => ⟨S_, .f32⟩
  | .hbm, ⟨27, _⟩ => ⟨S1024x64, .f32⟩
  | .hbm, ⟨28, _⟩ => ⟨S_, .f32⟩
  | .hbm, ⟨29, _⟩ => ⟨S1024x64, .f32⟩
  | .hbm, ⟨30, _⟩ => ⟨S1024x64, .f32⟩
  | .hbm, ⟨31, _⟩ => ⟨S_, .f32⟩
  | .hbm, ⟨32, _⟩ => ⟨S1024x64, .f32⟩
  | .hbm, ⟨33, _⟩ => ⟨S_, .f32⟩
  | .hbm, ⟨34, _⟩ => ⟨S1024x64, .f32⟩
  | .hbm, ⟨35, _⟩ => ⟨S1024x64, .f32⟩
  | .hbm, ⟨36, _⟩ => ⟨S1024x64, .f32⟩
  | .hbm, ⟨37, _⟩ => ⟨S_, .f32⟩
  | .hbm, ⟨38, _⟩ => ⟨S1024x64, .f32⟩
  | .hbm, ⟨39, _⟩ => ⟨S1024x64, .f32⟩
  | .hbm, ⟨40, _⟩ => ⟨S1024x64, .f32⟩
  | .hbm, ⟨41, _⟩ => ⟨S1024x64, .f32⟩
  | .hbm, ⟨42, _⟩ => ⟨S1024x64, .f32⟩
  | .hbm, ⟨43, _⟩ => ⟨S1024x64, .f32⟩
  | .hbm, ⟨44, _⟩ => ⟨S1024x64, .f32⟩
  | .hbm, ⟨45, _⟩ => ⟨S1024x64, .f32⟩
  | .hbm, ⟨46, _⟩ => ⟨S1024x64, .f32⟩
  | .hbm, ⟨47, _⟩ => ⟨S_, .i32⟩
  | .hbm, ⟨48, _⟩ => ⟨S100000, .i32⟩
  | .hbm, ⟨49, _⟩ => ⟨S100000, .i1⟩
  | .hbm, ⟨50, _⟩ => ⟨S_, .i32⟩
  | .hbm, ⟨51, _⟩ => ⟨S100000, .i32⟩
  | .hbm, ⟨52, _⟩ => ⟨S100000, .i32⟩
  | .hbm, ⟨53, _⟩ => ⟨S100000, .i32⟩
  | .hbm, ⟨54, _⟩ => ⟨S100000x1, .i32⟩
  | .hbm, ⟨55, _⟩ => ⟨S100000x64, .f32⟩
  | .hbm, ⟨56, _⟩ => ⟨S_, .i32⟩
  | .hbm, ⟨57, _⟩ => ⟨S100000, .i32⟩
  | .hbm, ⟨58, _⟩ => ⟨S100000, .i1⟩
  | .hbm, ⟨59, _⟩ => ⟨S_, .i32⟩
  | .hbm, ⟨60, _⟩ => ⟨S100000, .i32⟩
  | .hbm, ⟨61, _⟩ => ⟨S100000, .i32⟩
  | .hbm, ⟨62, _⟩ => ⟨S100000, .i32⟩
  | .hbm, ⟨63, _⟩ => ⟨S100000x1, .i32⟩
  | .hbm, ⟨64, _⟩ => ⟨S100000, .f32⟩
  | .hbm, ⟨65, _⟩ => ⟨S_, .i32⟩
  | .hbm, ⟨66, _⟩ => ⟨S_, .f32⟩
  | .hbm, ⟨67, _⟩ => ⟨S100352x64, .f32⟩
  | .hbm, ⟨68, _⟩ => ⟨S_, .i32⟩
  | .hbm, ⟨69, _⟩ => ⟨S_, .f32⟩
  | .hbm, ⟨70, _⟩ => ⟨S100352, .f32⟩
  | .hbm, ⟨71, _⟩ => ⟨S1x100352, .f32⟩
  | .hbm, ⟨72, _⟩ => ⟨S1024x100352, .f32⟩
  | .hbm, ⟨73, _⟩ => ⟨S1024x100000, .f32⟩
  | .local _ .vmem, ⟨0, _⟩ => ⟨S1024x64, .f32⟩
  | .local _ .vmem, ⟨1, _⟩ => ⟨S2048x64, .f32⟩
  | .local _ .vmem, ⟨2, _⟩ => ⟨S2048x64, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S1024x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_call0_v0 : Ref sig .tc := ⟨.hbm, 66, rfl⟩
abbrev main_v45 : Ref sig .tc := ⟨.hbm, 67, rfl⟩
abbrev main_c_12 : Ref sig .tc := ⟨.hbm, 68, rfl⟩
abbrev main_call1_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S_S1024 : S_.BroadcastsInDim S1024 (![] : Fin 0 → Fin S1024.rank)
  bcast_S1024_S1024x1_0 : S1024.BroadcastsInDim S1024x1 (![0] : Fin 1 → Fin S1024x1.rank)
  slices_S1024x50x64_S1024x10x64_0_40_0 : S1024x50x64.Slices ![0, 40, 0] S1024x10x64
  reducesTo_S1024x10x64_S1024x64_d1 : S1024x10x64.ReducesTo [1] S1024x64
  h_S_ : 0 < S_.numel
  bcast_S_S1024x64 : S_.BroadcastsInDim S1024x64 (![] : Fin 0 → Fin S1024x64.rank)
  reducesTo_S1024x50x64_S1024x64_d1 : S1024x50x64.ReducesTo [1] S1024x64
  bcast_S_S100000 : S_.BroadcastsInDim S100000 (![] : Fin 0 → Fin S100000.rank)
  bcast_S100000_S100000x1_0 : S100000.BroadcastsInDim S100000x1 (![0] : Fin 1 → Fin S100000x1.rank)
  pads_S100000x64_S100352x64_03520_000 : S100000x64.Pads (![0, 0] : Fin 2 → Nat) ![352, 0] ![0, 0] S100352x64
  pads_S100000_S100352_03520 : S100000.Pads (![0] : Fin 1 → Nat) ![352] ![0] S100352
  shapeCasts_S100352_S1x100352 : S100352.ShapeCasts S1x100352
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  slices_S1024x100352_S1024x100000_0_0 : S1024x100352.Slices ![0, 0] S1024x100000
  gather_S100000x64_S1024x50x1_S1024x50x64_2_0_n_n_0_2_164_wf : GatherDims.WF S100000x64 S1024x50x1 S1024x50x64 [2] [0] [] [0] [] 2 ![1, 64]
  gather_S100000x64_S1024x1_S1024x64_1_0_n_n_0_1_164_wf : GatherDims.WF S100000x64 S1024x1 S1024x64 [1] [0] [] [0] [] 1 ![1, 64]
  gather_S100000x64_S100000x1_S100000x64_1_0_n_n_0_1_164_wf : GatherDims.WF S100000x64 S100000x1 S100000x64 [1] [0] [] [0] [] 1 ![1, 64]
  gather_S100000_S100000x1_S100000_n_0_n_n_0_1_1_wf : GatherDims.WF S100000 S100000x1 S100000 [] [0] [] [0] [] 1 ![1]
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S100352x64.size a
  hwx0_1 : ∀ i : grid0.Coords, EltTy.bits .f32 = 32 ∨ (Rect.block (s := S100352x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x100352.size a
  hwx0_2 : ∀ i : grid0.Coords, EltTy.bits .f32 = 32 ∨ (Rect.block (s := S1x100352) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x100352.size a
  hwx0_3 : ∀ i : grid0.Coords, EltTy.bits .f32 = 32 ∨ (Rect.block (s := S1024x100352) S1024x2048.size (cc0_transform_3 i) (hinb0_3 i)).WholeWords (EltTy.packing .f32)

variable [Facts₀]

def gather_S100000x64_S1024x50x1_S1024x50x64_2_0_n_n_0_2_164 : GatherDims S100000x64 S1024x50x1 S1024x50x64 where
  offsetDims := [2]
  collapsedSliceDims := [0]
  operandBatchingDims := []
  startIndicesBatchingDims := []
  startIndexMap := [0]
  indexVectorDim := 2
  sliceSizes := ![1, 64]
  wf := gather_S100000x64_S1024x50x1_S1024x50x64_2_0_n_n_0_2_164_wf
def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_v30) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v45) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x50 : Shape := ⟨2, ![1024, 50]⟩
abbrev S1024 : Shape := ⟨1, ![1024]⟩
abbrev S100000 : Shape := ⟨1, ![100000]⟩
abbrev S100000x64 : Shape := ⟨2, ![100000, 64]⟩
abbrev S_ : Shape := ⟨0, ![]⟩
abbrev S1024x50x1 : Shape := ⟨3, ![1024, 50, 1]⟩
abbrev S1024x50x64 : Shape := ⟨3, ![1024, 50, 64]⟩
abbrev S1024x1 : Shape := ⟨2, ![1024, 1]⟩
abbrev S1024x64 : Shape := ⟨2, ![1024, 64]⟩
abbrev S1024x10x64 : Shape := ⟨3, ![1024, 10, 64]⟩
abbrev S100000x1 : Shape := ⟨2, ![100000, 1]⟩
abbrev S64x100000 : Shape := ⟨2, ![64, 100000]⟩
abbrev S1024x100000 : Shape := ⟨2, ![1024, 100000]⟩
abbrev S1x100000 : Shape := ⟨2, ![1, 100000]⟩

abbrev nBuf : Space → Nat
  | .hbm => 70
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1024, .i32⟩
  | .hbm, ⟨2, _⟩ => ⟨S100000, .i32⟩
  | .hbm, ⟨3, _⟩ => ⟨S100000x64, .f32⟩
  | .hbm, ⟨4, _⟩ => ⟨S100000x64, .f32⟩
  | .hbm, ⟨5, _⟩ => ⟨S100000x64, .f32⟩
  | .hbm, ⟨6, _⟩ => ⟨S100000, .f32⟩
  | .hbm, ⟨7, _⟩ => ⟨S_, .i32⟩
  | .hbm, ⟨8, _⟩ => ⟨S1024x50, .i32⟩
  | .hbm, ⟨9, _⟩ => ⟨S1024x50, .i1⟩
  | .hbm, ⟨10, _⟩ => ⟨S_, .i32⟩
  | .hbm, ⟨11, _⟩ => ⟨S1024x50, .i32⟩
  | .hbm, ⟨12, _⟩ => ⟨S1024x50, .i32⟩
  | .hbm, ⟨13, _⟩ => ⟨S1024x50, .i32⟩
  | .hbm, ⟨14, _⟩ => ⟨S1024x50x1, .i32⟩
  | .hbm, ⟨15, _⟩ => ⟨S1024x50x64, .f32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x64, .f32⟩
  | .hbm, ⟨25, _⟩ => ⟨S1024x10x64, .f32⟩
  | .hbm, ⟨26, _⟩ => ⟨S_, .f32⟩
  | .hbm, ⟨27, _⟩ => ⟨S1024x64, .f32⟩
  | .hbm, ⟨28, _⟩ => ⟨S_, .f32⟩
  | .hbm, ⟨29, _⟩ => ⟨S1024x64, .f32⟩
  | .hbm, ⟨30, _⟩ => ⟨S1024x64, .f32⟩
  | .hbm, ⟨31, _⟩ => ⟨S_, .f32⟩
  | .hbm, ⟨32, _⟩ => ⟨S1024x64, .f32⟩
  | .hbm, ⟨33, _⟩ => ⟨S_, .f32⟩
  | .hbm, ⟨34, _⟩ => ⟨S1024x64, .f32⟩
  | .hbm, ⟨35, _⟩ => ⟨S1024x64, .f32⟩
  | .hbm, ⟨36, _⟩ => ⟨S1024x64, .f32⟩
  | .hbm, ⟨37, _⟩ => ⟨S_, .f32⟩
  | .hbm, ⟨38, _⟩ => ⟨S1024x64, .f32⟩
  | .hbm, ⟨39, _⟩ => ⟨S1024x64, .f32⟩
  | .hbm, ⟨40, _⟩ => ⟨S1024x64, .f32⟩
  | .hbm, ⟨41, _⟩ => ⟨S1024x64, .f32⟩
  | .hbm, ⟨42, _⟩ => ⟨S1024x64, .f32⟩
  | .hbm, ⟨43, _⟩ => ⟨S1024x64, .f32⟩
  | .hbm, ⟨44, _⟩ => ⟨S1024x64, .f32⟩
  | .hbm, ⟨45, _⟩ => ⟨S1024x64, .f32⟩
  | .hbm, ⟨46, _⟩ => ⟨S_, .i32⟩
  | .hbm, ⟨47, _⟩ => ⟨S100000, .i32⟩
  | .hbm, ⟨48, _⟩ => ⟨S100000, .i1⟩
  | .hbm, ⟨49, _⟩ => ⟨S_, .i32⟩
  | .hbm, ⟨50, _⟩ => ⟨S100000, .i32⟩
  | .hbm, ⟨51, _⟩ => ⟨S100000, .i32⟩
  | .hbm, ⟨52, _⟩ => ⟨S100000, .i32⟩
  | .hbm, ⟨53, _⟩ => ⟨S100000x1, .i32⟩
  | .hbm, ⟨54, _⟩ => ⟨S100000x64, .f32⟩
  | .hbm, ⟨55, _⟩ => ⟨S_, .i32⟩
  | .hbm, ⟨56, _⟩ => ⟨S100000, .i32⟩
  | .hbm, ⟨57, _⟩ => ⟨S100000, .i1⟩
  | .hbm, ⟨58, _⟩ => ⟨S_, .i32⟩
  | .hbm, ⟨59, _⟩ => ⟨S100000, .i32⟩
  | .hbm, ⟨60, _⟩ => ⟨S100000, .i32⟩
  | .hbm, ⟨61, _⟩ => ⟨S100000, .i32⟩
  | .hbm, ⟨62, _⟩ => ⟨S100000x1, .i32⟩
  | .hbm, ⟨63, _⟩ => ⟨S100000, .f32⟩
  | .hbm, ⟨64, _⟩ => ⟨S1024x64, .f32⟩
  | .hbm, ⟨65, _⟩ => ⟨S64x100000, .f32⟩
  | .hbm, ⟨66, _⟩ => ⟨S1024x100000, .f32⟩
  | .hbm, ⟨67, _⟩ => ⟨S1x100000, .f32⟩
  | .hbm, ⟨68, _⟩ => ⟨S1024x100000, .f32⟩
  | .hbm, ⟨69, _⟩ => ⟨S1024x100000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S_S1024 : S_.BroadcastsInDim S1024 (![] : Fin 0 → Fin S1024.rank)
  bcast_S1024_S1024x1_0 : S1024.BroadcastsInDim S1024x1 (![0] : Fin 1 → Fin S1024x1.rank)
  slices_S1024x50x64_S1024x10x64_0_40_0 : S1024x50x64.Slices ![0, 40, 0] S1024x10x64
  reducesTo_S1024x10x64_S1024x64_d1 : S1024x10x64.ReducesTo [1] S1024x64
  h_S_ : 0 < S_.numel
  bcast_S_S1024x64 : S_.BroadcastsInDim S1024x64 (![] : Fin 0 → Fin S1024x64.rank)
  reducesTo_S1024x50x64_S1024x64_d1 : S1024x50x64.ReducesTo [1] S1024x64
  bcast_S_S100000 : S_.BroadcastsInDim S100000 (![] : Fin 0 → Fin S100000.rank)
  bcast_S100000_S100000x1_0 : S100000.BroadcastsInDim S100000x1 (![0] : Fin 1 → Fin S100000x1.rank)
  transposes_S100000x64_S64x100000_1_0 : S100000x64.Transposes [1, 0] S64x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x64_S1024x50x1_S1024x50x64_2_0_n_n_0_2_164_wf : GatherDims.WF S100000x64 S1024x50x1 S1024x50x64 [2] [0] [] [0] [] 2 ![1, 64]
  gather_S100000x64_S1024x1_S1024x64_1_0_n_n_0_1_164_wf : GatherDims.WF S100000x64 S1024x1 S1024x64 [1] [0] [] [0] [] 1 ![1, 64]
  gather_S100000x64_S100000x1_S100000x64_1_0_n_n_0_1_164_wf : GatherDims.WF S100000x64 S100000x1 S100000x64 [1] [0] [] [0] [] 1 ![1, 64]
  gather_S100000_S100000x1_S100000_n_0_n_n_0_1_1_wf : GatherDims.WF S100000 S100000x1 S100000 [] [0] [] [0] [] 1 ![1]
  dot_S1024x64_S64x100000_S1024x100000_1_0_0_1_n_n_wf : DotDims.WF S1024x64 S64x100000 S1024x100000 [1] [0] [0] [1] [] []

variable [Facts₀]

def gather_S100000x64_S1024x50x1_S1024x50x64_2_0_n_n_0_2_164 : GatherDims S100000x64 S1024x50x1 S1024x50x64 where
  offsetDims := [2]
  collapsedSliceDims := [0]
  operandBatchingDims := []
  startIndicesBatchingDims := []
  startIndexMap := [0]
  indexVectorDim := 2
  sliceSizes := ![1, 64]
  wf := gather_S100000x64_S1024x50x1_S1024x50x64_2_0_n_n_0_2_164_wf
def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.ScoreSpec.lean ====
/-
  The scoring function that both programs compute on the extended reals.

  Given a query matrix `q` (one row of 64 entries per batch element), a weight matrix `w` (one row of 64 entries per
  item) and a bias vector `b` (one entry per item), the score of item `v` for batch element `p` is the inner product
  of row `p` of `q` with row `v` of `w`, plus `b v`:

      score q w b (p, v) = (∑ k < 64, q (p, k) · w (v, k)) + b v.

  `scorePadded` is the same function over an item axis lengthened from 100000 to 100352 = 49 · 2048 entries, the bias
  laid out as a single row. Restricted to the first 100000 items, and with the lengthened weight and bias arrays
  agreeing there with the original ones, it is `score` (`scorePadded_eq_score`): an entry of the result depends on one
  row of `w` and one entry of `b` only, so whatever fills the added rows is never read.
-/
import Idealize.ShloMosaic.PureOps.Ideal
import Idealize.ShloMosaic.Lib.ValueIdx

noncomputable section

namespace Cert.Scoring

open Idealize.ShloMosaic Idealize.ShloMosaic.ValueIdx

/-- The scores of 100000 items for 1024 batch elements. -/
def score (q : FVec Ideal ⟨2, ![1024, 64]⟩ .f32) (w : FVec Ideal ⟨2, ![100000, 64]⟩ .f32)
    (b : FVec Ideal ⟨1, ![100000]⟩ .f32) : FVec Ideal ⟨2, ![1024, 100000]⟩ .f32 :=
  fun i => (∑ k : Fin 64, q (ix2 (i 0) k) * w (ix2 (i 1) k)) + b (ix1 (i 1))

/-- The same over 100352 item slots, the bias a single row. -/
def scorePadded (q : FVec Ideal ⟨2, ![1024, 64]⟩ .f32) (w : FVec Ideal ⟨2, ![100352, 64]⟩ .f32)
    (b : FVec Ideal ⟨2, ![1, 100352]⟩ .f32) : FVec Ideal ⟨2, ![1024, 100352]⟩ .f32 :=
  fun i => (∑ k : Fin 64, q (ix2 (i 0) k) * w (ix2 (i 1) k)) + b (ix2 (0 : Fin 1) (i 1))

/-- The padded scores at an item slot below 100000 are the scores, once the padded weights and bias agree with the
    original ones on those slots. -/
theorem scorePadded_eq_score (q : FVec Ideal ⟨2, ![1024, 64]⟩ .f32)
    (w : FVec Ideal ⟨2, ![100000, 64]⟩ .f32) (b : FVec Ideal ⟨1, ![100000]⟩ .f32)
    (w' : FVec Ideal ⟨2, ![100352, 64]⟩ .f32) (b' : FVec Ideal ⟨2, ![1, 100352]⟩ .f32)
    (hw : ∀ (v : Fin 100000) (v' : Fin 100352) (k : Fin 64), v'.val = v.val → w' (ix2 v' k) = w (ix2 v k))
    (hb : ∀ (v : Fin 100000) (v' : Fin 100352), v'.val = v.val → b' (ix2 (0 : Fin 1) v') = b (ix1 v))
    (p : Fin 1024) (v : Fin 100000) (v' : Fin 100352) (hv : v'.val = v.val) :
    scorePadded q w' b' (ix2 p v') = score q w b (ix2 p v) := by
  unfold scorePadded score
  show (∑ k : Fin 64, q (ix2 p k) * w' (ix2 v' k)) + b' (ix2 (0 : Fin 1) v')
    = (∑ k : Fin 64, q (ix2 p k) * w (ix2 v k)) + b (ix1 v)
  rw [hb v v' hv]
  exact congrArg (· + b (ix1 v)) (Finset.sum_congr rfl fun k _ => by rw [hw v v' k hv])

end Cert.Scoring

end
-- ==== Proof.RefScore.lean ====
/-
  The reference's result is the scoring function of its three intermediate arrays.

  The reference ends with a transpose of the gathered weight rows, a matrix product contracting the query's 64-entry
  axis with the transposed weights' leading axis, and the sum with the gathered bias laid along every batch row. Read at
  an index (p, v) this is (∑ k < 64, q (p, k) · w (v, k)) + b v, where q, w and b are the reference's own query, gathered
  weights and gathered bias: the transpose only renames the weight's coordinates, and the two broadcasts read the bias
  at the item coordinate.
-/
import proofs.«174893_j3504693314068_1_alg».proof.Proof.Gen.ReferenceIdeal.Read
import proofs.«174893_j3504693314068_1_alg».proof.Proof.ScoreSpec

noncomputable section

namespace Cert.ReferenceIdeal.Scoring

open Cert.ReferenceIdeal Cert.ReferenceIdeal.Read Idealize.ShloMosaic Idealize.ShloMosaic.ValueIdx

/-- The product's left operand is read at (p, k). -/
theorem query_idx (p : Fin 1024) (v : Fin 100000) (k : Fin 64) : lidx_main_v46 (ix2 p v) k = ix2 p k :=
  funext fun a => Fin.ext (by match a with | ⟨0, _⟩ => rfl | ⟨1, _⟩ => rfl)

/-- The product's right operand, the transposed weights at (k, v), is the weights at (v, k). -/
theorem weight_idx (p : Fin 1024) (v : Fin 100000) (k : Fin 64) :
    idx_main_v45 (ridx_main_v46 (ix2 p v) k) = ix2 v k :=
  funext fun a => Fin.ext (by match a with | ⟨0, _⟩ => rfl | ⟨1, _⟩ => rfl)

/-- The bias, laid along every batch row, is read at the item coordinate. -/
theorem bias_idx (p : Fin 1024) (v : Fin 100000) : idx_main_v47 (idx_main_v48 (ix2 p v)) = ix1 v :=
  funext fun a => Fin.ext (by match a with | ⟨0, _⟩ => rfl)

/-- The reference's result is `score` of its query, its gathered weights and its gathered bias. -/
theorem result_eq_score (x0 : (⟨S1024x50, .i32⟩ : BufTy).Contents (Elt Ideal)) (x1 : (⟨S1024, .i32⟩ : BufTy).Contents (Elt Ideal))
    (x2 : (⟨S100000, .i32⟩ : BufTy).Contents (Elt Ideal)) (x3 x4 x5 : (⟨S100000x64, .f32⟩ : BufTy).Contents (Elt Ideal))
    (x6 : (⟨S100000, .f32⟩ : BufTy).Contents (Elt Ideal)) :
    val_main_v49 (F := Ideal) x0 x1 x2 x3 x4 x5 x6
      = Cert.Scoring.score (val_main_v44 (F := Ideal) x0 x1 x3 x4) (val_main_v36 (F := Ideal) x2 x5)
          (val_main_v43 (F := Ideal) x2 x6) := by
  funext i
  obtain ⟨p, v, rfl⟩ : ∃ (p : Fin 1024) (v : Fin 100000), i = ix2 p v := ⟨i 0, i 1, eq_ix2 i⟩
  rw [val_main_v49_apply, val_main_v46_apply, val_main_v48_apply, val_main_v47_apply, bias_idx]
  simp only [val_main_v45_apply, query_idx, weight_idx]
  rfl

end Cert.ReferenceIdeal.Scoring

end
-- ==== Proof.BodyScore.lean ====
/-
  What the kernel body stores at one grid point, read at an index.

  The body loads a block `x0` of 1024 query rows, a block `x1` of 2048 weight rows and a block `x2` holding 2048 bias
  entries as one row, and stores

      matmul x0 x1 (into a zero accumulator, contracting the 64-entry axis of both)  +  x2 laid along every row.

  On the extended reals the two changes of float format on the way into the product are the identity and the zero
  accumulator adds nothing, so the stored entry at (p, r) is

      (∑ k < 64, x0 (p, k) · x1 (r, k)) + x2 (0, r).
-/
import proofs.«174893_j3504693314068_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Scoring

open Cert.KernelIdeal Cert.KernelIdeal.Gen Idealize.ShloMosaic Idealize.ShloMosaic.ValueIdx

/-! ## The product's operand indices: output (p, r) and contraction index k read x0 at (p, k) and x1 at (r, k) -/

theorem lhs_row (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl

theorem lhs_col (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q

theorem rhs_row (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl

theorem rhs_col (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The product into a zero accumulator at (p, r): the inner product of row p of the left block with row r of the
    right block. -/
theorem product_apply (a : FVec Ideal S1024x64 .bf16) (b : FVec Ideal S2048x64 .bf16) (p : Fin 1024) (r : Fin 2048) :
    matmul dot_S1024x64_S2048x64_S1024x2048_1_1_0_0_n_n none a b (constant S1024x2048 .f32 0x00000000#32) (ix2 p r)
      = ∑ k : Fin 64, a (ix2 p k) * b (ix2 r k) := by
  refine (Ideal.matmul_constant_zero_apply dot_S1024x64_S2048x64_S1024x2048_1_1_0_0_n_n none a b (ix2 p r)).trans ?_
  rw [← Equiv.sum_comp (ValueIdx.contrEquiv1 dot_S1024x64_S2048x64_S1024x2048_1_1_0_0_n_n 64 rfl rfl).symm]
  refine Finset.sum_congr rfl fun k _ => ?_
  have hk := ValueIdx.contrEquiv1_symm_val dot_S1024x64_S2048x64_S1024x2048_1_1_0_0_n_n 64 rfl rfl k
  have el : dot_S1024x64_S2048x64_S1024x2048_1_1_0_0_n_n.lhsIdx (ix2 p r)
      ((ValueIdx.contrEquiv1 dot_S1024x64_S2048x64_S1024x2048_1_1_0_0_n_n 64 rfl rfl).symm k) = ix2 p k :=
    funext fun ax => Fin.ext (by
      match ax with
      | ⟨0, _⟩ => exact lhs_row _ _
      | ⟨1, _⟩ => exact (lhs_col _ _).trans hk)
  have er : dot_S1024x64_S2048x64_S1024x2048_1_1_0_0_n_n.rhsIdx (ix2 p r)
      ((ValueIdx.contrEquiv1 dot_S1024x64_S2048x64_S1024x2048_1_1_0_0_n_n 64 rfl rfl).symm k) = ix2 r k :=
    funext fun ax => Fin.ext (by
      match ax with
      | ⟨0, _⟩ => exact rhs_row _ _
      | ⟨1, _⟩ => exact (rhs_col _ _).trans hk)
  rw [el, er]

/-- The stored value at (p, r). -/
theorem stored_apply (x0 : Vec Ideal S1024x64 .f32) (x1 : Vec Ideal S2048x64 .f32) (x2 : Vec Ideal S1x2048 .f32)
    (p : Fin 1024) (r : Fin 2048) :
    k0_pay1 (F := Ideal) x0 x1 x2 (ix2 p r) = (∑ k : Fin 64, x0 (ix2 p k) * x1 (ix2 r k)) + x2 (ix2 (0 : Fin 1) r) := by
  unfold k0_pay1
  rw [shapeCast_self, shapeCast_self, shapeCast_self]
  refine (addf_apply _ _ (ix2 p r)).trans ?_
  rw [product_apply, broadcastTo_1b_ab_apply]
  rfl

end Cert.KernelIdeal.Scoring

end
-- ==== Proof.BlockCover.lean ====
/-
  The array the grid writes, as one function of the three arrays it is launched on.

  The grid has 49 points. Point n reads the whole query matrix, rows n·2048 … n·2048 + 2047 of the padded weights and
  entries n·2048 … n·2048 + 2047 of the padded bias row, and writes back columns n·2048 … n·2048 + 2047 of the
  1024 × 100352 result. What the body stores at (p, r) is (∑ k, x0 (p, k) · x1 (r, k)) + x2 (0, r) of its blocks, which is
  the padded scoring function at (p, n·2048 + r) of the whole arrays: every block written back is a block of ONE function
  of the launch arrays. Column v belongs to the block of point v / 2048, so the 49 blocks cover the array, and the array
  ends holding that function everywhere.
-/
import proofs.«174893_j3504693314068_1_alg».proof.Proof.Gen.KernelIdeal.Frame
import proofs.«174893_j3504693314068_1_alg».proof.Proof.BodyScore
import proofs.«174893_j3504693314068_1_alg».proof.Proof.ScoreSpec
import Idealize.ShloMosaic.Lib.Pipeline.Value
import Idealize.ShloMosaic.Lib.ValueIdx

set_option maxRecDepth 16384

noncomputable section

namespace Cert.KernelIdeal.Scoring

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

theorem origin_eq : (![0, 0] : Fin 2 → Nat) = fun _ => 0 := funext fun a => by fin_cases a <;> rfl

/-- What the body stores from blocks that are the stated parts of whole arrays Q, W, B is the padded scoring function
    of Q, W, B at the matching index: block point n, the stored index j and the array index i related by
    i = (j₀, n·2048 + j₁). -/
theorem stored_eq_scorePadded (Q : FVec Ideal S1024x64 .f32) (W : FVec Ideal S100352x64 .f32) (B : FVec Ideal S1x100352 .f32)
    (x0 : Vec Ideal S1024x64 .f32) (x1 : Vec Ideal S2048x64 .f32) (x2 : Vec Ideal S1x2048 .f32) (n : Nat)
    (h0 : ∀ y : S1024x64.Idx, x0 y = Q y)
    (h1 : ∀ (y : S2048x64.Idx) (z : S100352x64.Idx), (z 0).val = n * 2048 + (y 0).val → (z 1).val = (y 1).val → x1 y = W z)
    (h2 : ∀ (y : S1x2048.Idx) (z : S1x100352.Idx), (z 0).val = (y 0).val → (z 1).val = n * 2048 + (y 1).val → x2 y = B z)
    (j : S1024x2048.Idx) (i : S1024x100352.Idx) (hi0 : (i 0).val = (j 0).val) (hi1 : (i 1).val = n * 2048 + (j 1).val) :
    k0_pay1 (F := Ideal) x0 x1 x2 j = Cert.Scoring.scorePadded Q W B i := by
  obtain ⟨p, r, rfl⟩ : ∃ (p : Fin 1024) (r : Fin 2048), j = ix2 p r := ⟨j 0, j 1, eq_ix2 j⟩
  obtain ⟨p', v, rfl⟩ : ∃ (p' : Fin 1024) (v : Fin 100352), i = ix2 p' v := ⟨i 0, i 1, eq_ix2 i⟩
  obtain rfl : p = p' := (Fin.ext hi0).symm
  have hv : v.val = n * 2048 + r.val := hi1
  rw [stored_apply]
  unfold Cert.Scoring.scorePadded
  show (∑ k : Fin 64, x0 (ix2 p k) * x1 (ix2 r k)) + x2 (ix2 (0 : Fin 1) r)
    = (∑ k : Fin 64, Q (ix2 p k) * W (ix2 v k)) + B (ix2 (0 : Fin 1) v)
  rw [h2 (ix2 (0 : Fin 1) r) (ix2 (0 : Fin 1) v) rfl hv]
  exact congrArg (· + B (ix2 (0 : Fin 1) v)) (Finset.sum_congr rfl fun k _ => by
    rw [h0 (ix2 p k), h1 (ix2 r k) (ix2 v k) hv rfl])

/-- The printed index maps, decided over the grid: the query's one block, and block n of the weights' rows, of the bias
    row's entries and of the result's columns at point n. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

set_option maxHeartbeats 2000000 in
/-- What point t writes back is block t of the padded scoring function of the launch arrays. -/
theorem flushed_eq (c : Dev nD) (t : Fin cfg0.N) :
    (dats m 0 c).flushed 3 t = ((cfg0.win 3).blk t).view.read (Elt Ideal)
      (Cert.Scoring.scorePadded (V m c main_v30) (V m c main_v45) (V m c main_v47)) := by
  show (cfg0.win 3).cut (grid0.coords t) ((dats m 0 c).after 3 t) = _
  rw [after0_3]
  unfold out0_3
  rw [View.canon_unit_zero origin_eq]
  simp only [View.ld_unit_zero (S := S1024x64) origin_eq, View.ld_unit_zero (S := S2048x64) origin_eq,
    View.ld_unit_zero (S := S1x2048) origin_eq]
  obtain ⟨e00, e01, e10, e11, e20, e21, e30, e31⟩ := block_indices t
  funext j
  show k0_pay1 (F := Ideal) (iblk m c 0 t) (iblk m c 1 t) (iblk m c 2 t) j
    = Cert.Scoring.scorePadded (V m c main_v30) (V m c main_v45) (V m c main_v47) (((cfg0.win 3).blk t).view.emb j)
  refine stored_eq_scorePadded (V m c main_v30) (V m c main_v45) (V m c main_v47) (iblk m c 0 t) (iblk m c 1 t) (iblk m c 2 t)
    t.val ?_ ?_ ?_ j (((cfg0.win 3).blk t).view.emb j) ?_ ?_
  · intro y
    show V m c main_v30 (((cfg0.win 0).blk t).view.emb y) = V m c main_v30 y
    refine congrArg (V m c main_v30) (funext fun a => Fin.ext ?_)
    match a with
    | ⟨0, _⟩ => show win0_0.index t (0 : Fin 2) * 1024 + 1 * (y 0).val = (y 0).val; omega
    | ⟨1, _⟩ => show win0_0.index t (1 : Fin 2) * 64 + 1 * (y 1).val = (y 1).val; omega
  · intro y z hz0 hz1
    show V m c main_v45 (((cfg0.win 1).blk t).view.emb y) = V m c main_v45 z
    refine congrArg (V m c main_v45) (funext fun a => Fin.ext ?_)
    match a with
    | ⟨0, _⟩ => show win0_1.index t (0 : Fin 2) * 2048 + 1 * (y 0).val = (z 0).val; omega
    | ⟨1, _⟩ => show win0_1.index t (1 : Fin 2) * 64 + 1 * (y 1).val = (z 1).val; omega
  · intro y z hz0 hz1
    show V m c main_v47 (((cfg0.win 2).blk t).view.emb y) = V m c main_v47 z
    refine congrArg (V m c main_v47) (funext fun a => Fin.ext ?_)
    match a with
    | ⟨0, _⟩ => show win0_2.index t (0 : Fin 2) * 1 + 1 * (y 0).val = (z 0).val; omega
    | ⟨1, _⟩ => show win0_2.index t (1 : Fin 2) * 2048 + 1 * (y 1).val = (z 1).val; omega
  · show win0_3.index t (0 : Fin 2) * 1024 + 1 * (j 0).val = (j 0).val; omega
  · show win0_3.index t (1 : Fin 2) * 2048 + 1 * (j 1).val = t.val * 2048 + (j 1).val; omega

/-- An index of the result array is in point t's block iff each coordinate is in the block's range on its axis. -/
theorem mem_block (t : Fin cfg0.N) (i : S1024x100352.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v48).slice (win0_3.rect t)).set ↔ _
  rw [View.set_slice_whole, Rect.mem_set_unit]
  exact Iff.rfl

/-- Every index of the result array is in the block of the point its column falls in. -/
theorem covered (i : S1024x100352.Idx) :
    ∃ t : Fin cfg0.N, (cfg0.win 3).flush t = true ∧ i ∈ ((cfg0.win 3).blk t).view.set := by
  have hi0 : (i 0).val < 1024 := (i 0).isLt
  have hi1 : (i 1).val < 100352 := (i 1).isLt
  have hlt : (i 1).val / 2048 < cfg0.N := Nat.lt_of_lt_of_eq (by omega : (i 1).val / 2048 < 49) N_0.symm
  obtain ⟨-, -, -, -, -, -, e30, e31⟩ := block_indices ⟨(i 1).val / 2048, hlt⟩
  have e31' : win0_3.index ⟨(i 1).val / 2048, hlt⟩ (1 : Fin 2) = (i 1).val / 2048 := e31
  refine ⟨⟨(i 1).val / 2048, hlt⟩, flush0_3 _, ?_⟩
  rw [mem_block]
  intro a
  match a with
  | ⟨0, _⟩ =>
    show win0_3.index ⟨(i 1).val / 2048, hlt⟩ (0 : Fin 2) * 1024 ≤ (i 0).val
      ∧ (i 0).val < win0_3.index ⟨(i 1).val / 2048, hlt⟩ (0 : Fin 2) * 1024 + 1024
    omega
  | ⟨1, _⟩ =>
    show win0_3.index ⟨(i 1).val / 2048, hlt⟩ (1 : Fin 2) * 2048 ≤ (i 1).val
      ∧ (i 1).val < win0_3.index ⟨(i 1).val / 2048, hlt⟩ (1 : Fin 2) * 2048 + 2048
    omega

/-- The result array after the grid: the padded scoring function of the launch arrays. -/
theorem array_eq (c : Dev nD) :
    (dats m 0 c).arrAt 3 cfg0.N = Cert.Scoring.scorePadded (V m c main_v30) (V m c main_v45) (V m c main_v47) :=
  (dats m 0 c).arrAt_eq_of_cover 3 _ (fun t _ => flushed_eq m c t) (covered)

end Cert.KernelIdeal.Scoring

end
-- ==== Proof.HostInputs.lean ====
/-
  The three arrays the kernel's grid is launched on, as functions of the program's arguments.

  Before the launch the program computes, with the same host operations as the reference, a query matrix (the user
  embedding plus the combination of means and powers of the item embeddings), the gathered weight rows and the gathered
  bias. The query goes to the grid as it is; the weight rows are lengthened by 352 rows of padding to 100352 = 49 · 2048,
  and the bias is lengthened likewise and recast as a single row of 100352 entries.

  The shared host computation is never opened: each array is stated as the reference's own stage of the same arguments,
  and the padding and the recast are read at an index inside the original extent, where they return the original entry.
-/
import proofs.«174893_j3504693314068_1_alg».proof.Proof.Gen.KernelIdeal.Frame
import proofs.«174893_j3504693314068_1_alg».proof.Proof.Gen.ReferenceIdeal.Read
import Idealize.ShloMosaic.Lib.StableHlo.Run
import Idealize.ShloMosaic.Lib.KernelVsHost
import Idealize.ShloMosaic.Lib.ValueIdx
import Idealize.ShloMosaic.Lib.ValueLayout
import Idealize.ShloMosaic.Lib.Pipeline.Value

noncomputable section

namespace Cert.KernelIdeal.Scoring

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The query matrix of the launch memory's arguments: the reference's stage of the same name. -/
abbrev query (c : Dev nD) : FVec Ideal S1024x64 .f32 :=
  Cert.ReferenceIdeal.Read.val_main_v44 (F := Ideal) (m ((c : Thread nD τ).loc main_arg0)) (m ((c : Thread nD τ).loc main_arg1))
    (m ((c : Thread nD τ).loc main_arg3)) (m ((c : Thread nD τ).loc main_arg4))

/-- The gathered weight rows. -/
abbrev weights (c : Dev nD) : FVec Ideal S100000x64 .f32 :=
  Cert.ReferenceIdeal.Read.val_main_v36 (F := Ideal) (m ((c : Thread nD τ).loc main_arg2)) (m ((c : Thread nD τ).loc main_arg5))

/-- The gathered bias. -/
abbrev bias (c : Dev nD) : FVec Ideal S100000 .f32 :=
  Cert.ReferenceIdeal.Read.val_main_v43 (F := Ideal) (m ((c : Thread nD τ).loc main_arg2)) (m ((c : Thread nD τ).loc main_arg6))

set_option maxRecDepth 65536 in
set_option maxHeartbeats 4000000 in
/-- The grid's first operand is the query. -/
theorem query_eq (c : Dev nD) : (V m c main_v30 : FVec Ideal S1024x64 .f32) = query m c := by
  dsimp only [Gen.V, Gen.V0]
  simp only [hostOps0, hostOps0_1, hostOps0_2, hostOps0_3, hostOps0_4, List.flatten_cons, List.flatten_nil, List.append_nil,
    List.cons_append, List.nil_append]
  after_results_simp
  rfl

set_option maxRecDepth 65536 in
set_option maxHeartbeats 4000000 in
/-- The grid's second operand is the gathered weight rows followed by 352 rows of a padding value. -/
theorem weights_eq (c : Dev nD) : (V m c main_v45 : FVec Ideal S100352x64 .f32)
    = pad S100352x64 ![0, 0] ![352, 0] ![0, 0] (weights m c) (sitofp .f32 (constantI S_ 32 0#32) : FVec Ideal S_ .f32)
        pads_S100000x64_S100352x64_03520_000 h_S_ := by
  dsimp only [Gen.V, Gen.V0]
  simp only [hostOps0, hostOps0_1, hostOps0_2, hostOps0_3, hostOps0_4, List.flatten_cons, List.flatten_nil, List.append_nil,
    List.cons_append, List.nil_append]
  after_results_simp
  rfl

set_option maxRecDepth 65536 in
set_option maxHeartbeats 4000000 in
/-- The grid's third operand is the gathered bias followed by 352 entries of a padding value, recast as one row. -/
theorem bias_eq (c : Dev nD) : (V m c main_v47 : FVec Ideal S1x100352 .f32)
    = shapeCast S1x100352 (pad S100352 ![0] ![352] ![0] (bias m c) (sitofp .f32 (constantI S_ 32 0#32) : FVec Ideal S_ .f32)
        pads_S100000_S100352_03520 h_S_) shapeCasts_S100352_S1x100352 := by
  dsimp only [Gen.V, Gen.V0]
  simp only [hostOps0, hostOps0_1, hostOps0_2, hostOps0_3, hostOps0_4, List.flatten_cons, List.flatten_nil, List.append_nil,
    List.cons_append, List.nil_append]
  after_results_simp
  rfl

/-- Below row 100000 the padded weights are the gathered weights. -/
theorem weights_apply (c : Dev nD) (v : Fin 100000) (v' : Fin 100352) (k : Fin 64) (hv : v'.val = v.val) :
    (V m c main_v45 : FVec Ideal S100352x64 .f32) (ix2 v' k) = weights m c (ix2 v k) := by
  rw [weights_eq]
  exact pad_apply_of_inside _ _ _ _ _ _ _ (ix2 v' k) (ix2 v k) (fun a => by
    match a with
    | ⟨0, _⟩ => show v'.val = 0 + v.val * (0 + 1); omega
    | ⟨1, _⟩ => show k.val = 0 + k.val * (0 + 1); omega)

/-- Below entry 100000 the padded bias row is the gathered bias. -/
theorem bias_apply (c : Dev nD) (v : Fin 100000) (v' : Fin 100352) (hv : v'.val = v.val) :
    (V m c main_v47 : FVec Ideal S1x100352 .f32) (ix2 (0 : Fin 1) v') = bias m c (ix1 v) := by
  rw [bias_eq]
  refine (shapeCast_a_1a_apply _ _ (0 : Fin 1) v').trans ?_
  exact pad_apply_of_inside _ _ _ _ _ _ _ (ix1 v') (ix1 v) (fun a => by
    match a with
    | ⟨0, _⟩ => show v'.val = 0 + v.val * (0 + 1); omega)

end Cert.KernelIdeal.Scoring

end
-- ==== Proof.KernelScore.lean ====
/-
  The kernel program's result is the scoring function of the query, the gathered weights and the gathered bias.

  After the grid the program keeps the first 100000 columns of the 1024 × 100352 array the grid wrote. That array is the
  padded scoring function of the launch arrays (the 49 blocks cover it), so column v < 100000 of row p holds
  (∑ k, q (p, k) · w' (v, k)) + b' (0, v) with w', b' the lengthened weights and bias; below slot 100000 these are the
  gathered weights and bias themselves, and the padding is never read.
-/
import proofs.«174893_j3504693314068_1_alg».proof.Proof.Gen.KernelIdeal.Frame
import proofs.«174893_j3504693314068_1_alg».proof.Proof.BlockCover
import proofs.«174893_j3504693314068_1_alg».proof.Proof.HostInputs
import proofs.«174893_j3504693314068_1_alg».proof.Proof.ScoreSpec
import Idealize.ShloMosaic.Lib.StableHlo.Run
import Idealize.ShloMosaic.Lib.ValueLayout

noncomputable section

namespace Cert.KernelIdeal.Scoring

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The kept columns of the grid's array are the scores. -/
theorem kept_columns (c : Dev nD) (X : FVec Ideal S1024x100352 .f32)
    (hX : X = Cert.Scoring.scorePadded (V m c main_v30) (V m c main_v45) (V m c main_v47)) :
    extractStridedSlice S1024x100000 ![0, 0] X slices_S1024x100352_S1024x100000_0_0
      = Cert.Scoring.score (query m c) (weights m c) (bias m c) := by
  funext i
  obtain ⟨p, v, rfl⟩ : ∃ (p : Fin 1024) (v : Fin 100000), i = ix2 p v := ⟨i 0, i 1, eq_ix2 i⟩
  have hv' : v.val < 100352 := by have := v.isLt; omega
  refine (slice2_axis1_apply 0 X slices_S1024x100352_S1024x100000_0_0 p v ⟨v.val, hv'⟩ (Nat.zero_add _).symm).trans ?_
  rw [hX, query_eq]
  exact Cert.Scoring.scorePadded_eq_score (query m c) (weights m c) (bias m c) (V m c main_v45) (V m c main_v47)
    (fun u u' k h => weights_apply m c u u' k h) (fun u u' h => bias_apply m c u u' h) p v ⟨v.val, hv'⟩ rfl

/-- The program's result buffer after the lines that follow the grid. -/
theorem result_eq (c : Dev nD) :
    (Pipeline.afterTail₀ cfgs (dats m) 0 (V0 m) [hostOps1] c main_v49 : FVec Ideal S1024x100000 .f32)
      = Cert.Scoring.score (query m c) (weights m c) (bias m c) := by
  unfold Pipeline.afterTail₀
  show StableHlo.after hostOps1 _ (Proc.devRef .tc main_v49) = _
  after_results
  exact kept_columns m c _ ((Pipeline.withArrays_arr spec0 launch0.win.arr_inj c _ _ 3).trans (array_eq m c))

/-- Every weakly fair execution of the kernel program ends with the result buffer at the scores and the arguments as
    launched. -/
theorem run : θ_run defs (onTc (τ := τ) (main (F := Ideal))) ⟨m, fun _ => 0, ρ⟩ (fun r => ∀ c : Dev nD,
      r.2.mem ((c.tc : Thread nD τ).loc main_v49) = Cert.Scoring.score (query m c) (weights m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v49 (Pipeline.mem_restRefs_of main_v49 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Scoring

end
-- ==== Proof.lean ====
/-
  Scoring a full item catalogue: a blocked matrix product with bias against the plain one.

  Both programs compute, with the same host operations, a query matrix q (1024 × 64), gathered weight rows w
  (100000 × 64) and a gathered bias b (100000 entries), and return the 1024 × 100000 array of scores

      score (p, v) = (∑ k < 64, q (p, k) · w (v, k)) + b v.

  The reference transposes w, takes one whole matrix product and adds b along every row. The kernel program lengthens w
  and b by 352 slots of padding to 100352 = 49 · 2048, computes the padded scores on a grid of 49 points — point n the
  product of q with rows n·2048 … n·2048 + 2047 of the padded weights, plus the matching stretch of the bias — and
  keeps the first 100000 columns. On the extended reals a change of float format is the identity and a product into a
  zero accumulator is the bare sum, so each side's entry at (p, v) is the same sum of the same 64 products plus the same
  bias entry; no rearrangement of a sum is involved, and the inputs' finiteness is not used. The padding is never read:
  a score depends on one weight row and one bias entry only.

  The idealized kernel is the kernel's own text read on the extended reals (no operation was rewritten), and the three
  frames are the programs' runs with the results dropped.
-/
import proofs.«174893_j3504693314068_1_alg».proof.Defs
import proofs.«174893_j3504693314068_1_alg».proof.Proof.Gen.Kernel
import proofs.«174893_j3504693314068_1_alg».proof.Proof.Gen.Kernel.Skeleton
import proofs.«174893_j3504693314068_1_alg».proof.Proof.Gen.Kernel.Launch
import proofs.«174893_j3504693314068_1_alg».proof.Proof.Gen.Kernel.Points
import proofs.«174893_j3504693314068_1_alg».proof.Proof.Gen.Kernel.Frame
import proofs.«174893_j3504693314068_1_alg».proof.Proof.Gen.KernelIdeal
import proofs.«174893_j3504693314068_1_alg».proof.Proof.Gen.KernelIdeal.Skeleton
import proofs.«174893_j3504693314068_1_alg».proof.Proof.Gen.KernelIdeal.Launch
import proofs.«174893_j3504693314068_1_alg».proof.Proof.Gen.KernelIdeal.Points
import proofs.«174893_j3504693314068_1_alg».proof.Proof.Gen.KernelIdeal.Frame
import proofs.«174893_j3504693314068_1_alg».proof.Proof.Gen.ReferenceIdeal
import proofs.«174893_j3504693314068_1_alg».proof.Proof.Gen.ReferenceIdeal.Run
import proofs.«174893_j3504693314068_1_alg».proof.Proof.Gen.ReferenceIdeal.Read
import proofs.«174893_j3504693314068_1_alg».proof.Proof.Gen.Pre_finite_inputs
import proofs.«174893_j3504693314068_1_alg».proof.Proof.RefScore
import proofs.«174893_j3504693314068_1_alg».proof.Proof.KernelScore
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories agreeing on the arguments both programs end with the scores of the same query, weights and bias. -/
theorem algebraic : Cert.algebraic_KernelIdeal_ReferenceIdeal := by
  intro m ρ m' ρ' _ hagree
  refine ⟨fun c => Cert.Scoring.score (Cert.KernelIdeal.Scoring.query m c) (Cert.KernelIdeal.Scoring.weights m c)
    (Cert.KernelIdeal.Scoring.bias m c), Cert.KernelIdeal.Scoring.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.Scoring.result_eq_score,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
